-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .i1⟩
  | .hbm, ⟨15, _⟩ => ⟨S2048x1, .f32⟩
  | .hbm, ⟨16, _⟩ => ⟨S2048x2048, .f32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_4 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/-
  The dense layer over a ternary weight, as functions on the extended reals.

  A weight row's THRESHOLD is a fixed fraction (the f32 nearest to 0.7) of the mean absolute value of its 2048
  entries; an entry is sent to 1 when it exceeds the threshold, to -1 when it lies below the negated threshold,
  and to 0 otherwise.  The layer's output at (batch p, position s, channel o) is the inner product of the input
  row x[p, s, ·] with the ternary row of channel o, plus the bias of channel o.

  Two facts about the ternary value are proved here: it is always a real number (one of 1, -1, 0), and so a
  real weight w satisfies  w + (q - w) = q  exactly (the straight-through form of the same value); on the
  extended reals this needs w real, since at w = +∞ the sum ∞ + (q - ∞) is -∞.
-/
import Idealize.ShloMosaic.PureOps.Ideal.Laws
import Idealize.ShloMosaic.Lib.ValueIdx

noncomputable section

namespace Cert.Ternary

open Idealize.ShloMosaic Idealize.ShloMosaic.ValueIdx

/-- The threshold of a row of 2048 entries: the f32 literal nearest 0.7 times the quotient of the sum of the
    entries' absolute values by 2048. -/
def thr (row : Fin 2048 → EReal) : EReal :=
  Ideal.ofBits .f32 0x3F333333#32
    * Ideal.div (∑ k : Fin 2048, max (row k) (-(row k))) (Ideal.ofBits .f32 0x45000000#32)

/-- The ternary value of an entry `w` against a threshold `t`: 1 above `t`, -1 below `-t`, else 0. -/
def tern (w t : EReal) : EReal :=
  Scalar.select (Ideal.cmp .ogt w t) (Ideal.ofBits .f32 0x3F800000#32)
    (Scalar.select (Ideal.cmp .olt w (-t)) (Ideal.ofBits .f32 0xBF800000#32) (Ideal.ofBits .f32 0x00000000#32))

theorem ofBits_one : Ideal.ofBits .f32 0x3F800000#32 = 1 := IdealRules.sign_bit.ideal_onePat .f32
theorem ofBits_negOne : Ideal.ofBits .f32 0xBF800000#32 = -1 := IdealRules.sign_bit.ideal_negOnePat .f32

/-- The ternary value is a real number: it is 1, -1 or 0. -/
theorem tern_real (w t : EReal) : ∃ r : ℝ, tern w t = (r : EReal) := by
  unfold tern Scalar.select
  split
  · exact ⟨1, by rw [ofBits_one]; rfl⟩
  · split
    · exact ⟨-1, by rw [ofBits_negOne]; rfl⟩
    · exact ⟨0, by rw [Ideal.ofBits_zero_f32]; rfl⟩

/-- For a real `w`, adding to `w` the difference between its ternary value and `w` gives the ternary value. -/
theorem add_tern_sub (w t : EReal) (hw : ∃ r : ℝ, w = (r : EReal)) : w + (tern w t - w) = tern w t := by
  obtain ⟨r, rfl⟩ := hw
  obtain ⟨q, hq⟩ := tern_real (r : EReal) t
  rw [hq, ← EReal.coe_sub, ← EReal.coe_add]
  exact congrArg _ (by ring)

/-- The ternary weight at (channel `o`, input `k`). -/
def Qrc (w : (⟨2, ![2048, 2048]⟩ : Shape).Idx → EReal) (o k : Fin 2048) : EReal :=
  tern (w (ix2 o k)) (thr fun k' => w (ix2 o k'))

/-- The ternary weight matrix. -/
def Q (w : (⟨2, ![2048, 2048]⟩ : Shape).Idx → EReal) : (⟨2, ![2048, 2048]⟩ : Shape).Idx → EReal :=
  fun i => Qrc w ⟨(i 0).val, (i 0).isLt⟩ ⟨(i 1).val, (i 1).isLt⟩

theorem Q_ix2 (w : (⟨2, ![2048, 2048]⟩ : Shape).Idx → EReal) (o k : Fin 2048) : Q w (ix2 o k) = Qrc w o k := rfl

/-- A row `r` of an [8192, 2048] matrix `a` against row `o` of a [2048, 2048] matrix `q`, plus entry `o` of a
    one-row matrix `b`. -/
def MM (a : (⟨2, ![8192, 2048]⟩ : Shape).Idx → EReal) (q : (⟨2, ![2048, 2048]⟩ : Shape).Idx → EReal)
    (b : (⟨2, ![1, 2048]⟩ : Shape).Idx → EReal) (r : Fin 8192) (o : Fin 2048) : EReal :=
  (∑ k : Fin 2048, a (ix2 r k) * q (ix2 o k)) + b (ix2 (0 : Fin 1) o)

/-- The same as a whole [8192, 2048] matrix. -/
def MMf (a : (⟨2, ![8192, 2048]⟩ : Shape).Idx → EReal) (q : (⟨2, ![2048, 2048]⟩ : Shape).Idx → EReal)
    (b : (⟨2, ![1, 2048]⟩ : Shape).Idx → EReal) : (⟨2, ![8192, 2048]⟩ : Shape).Idx → EReal :=
  fun i => MM a q b ⟨(i 0).val, (i 0).isLt⟩ ⟨(i 1).val, (i 1).isLt⟩

/-- The layer's output at (batch `p`, position `s`, channel `o`). -/
def Gc (x : (⟨3, ![4, 2048, 2048]⟩ : Shape).Idx → EReal) (w : (⟨2, ![2048, 2048]⟩ : Shape).Idx → EReal)
    (b : (⟨1, ![2048]⟩ : Shape).Idx → EReal) (p : Fin 4) (s o : Fin 2048) : EReal :=
  (∑ k : Fin 2048, x (ix3 p s k) * Qrc w o k) + b (ix1 o)

/-- The layer's output as a whole [4, 2048, 2048] array. -/
def G (x : (⟨3, ![4, 2048, 2048]⟩ : Shape).Idx → EReal) (w : (⟨2, ![2048, 2048]⟩ : Shape).Idx → EReal)
    (b : (⟨1, ![2048]⟩ : Shape).Idx → EReal) : (⟨3, ![4, 2048, 2048]⟩ : Shape).Idx → EReal :=
  fun i => Gc x w b ⟨(i 0).val, (i 0).isLt⟩ ⟨(i 1).val, (i 1).isLt⟩ ⟨(i 2).val, (i 2).isLt⟩

theorem G_ix3 (x : (⟨3, ![4, 2048, 2048]⟩ : Shape).Idx → EReal) (w : (⟨2, ![2048, 2048]⟩ : Shape).Idx → EReal)
    (b : (⟨1, ![2048]⟩ : Shape).Idx → EReal) (p : Fin 4) (s o : Fin 2048) : G x w b (ix3 p s o) = Gc x w b p s o := rfl

end Cert.Ternary

end
-- ==== Proof.LibKeepdimsMin.lean ====
/-
  General reading lemmas for keepdims layouts and one-axis reductions at the ideal values, over any extents.

  * Casts that only add unit axes read the operand at the same coordinate: `[a] → [a, 1]`, `[a] → [1, a, 1]`.
  * A column `[a, 1]` broadcast along its unit axis to `[a, b]` reads, at `(p, c)`, the column at `p`.
  * The sum over the three lanes of an `[n, 3]` array at row `r` is the `Fin 3`-indexed sum of that row.
  * A `minimumf` reduction over ONE axis is, at each result index, the fold of `min` from the accumulator's value over
    that axis's coordinates (the counterpart of the library's statement for `maximumf`); for an `[a, b]` table from +∞:
    the minimum over the columns at a row, and the minimum over the rows at a column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.KeepdimsMin

open Idealize.ShloMosaic Idealize.ShloMosaic.ValueIdx

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, a, 1]` reads, at `(u, i, w)`, the operand at `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis at coordinates -/

/-- The sum over the three lanes of an `[n, 3]` array, at row `r`. -/
theorem laneSum_apply {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ src 0x00000000#32 h hφ hacc (ix1 r) = ∑ k : Fin 3, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- A `minimumf` reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the columns of an `[a, b]` table, at row `r`. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ src 0x7F800000#32 h hφ hacc (ix1 r)
      = (Finset.univ : Finset (Fin b)).fold min (Ideal.ofBits .f32 0x7F800000#32) (fun c => src (ix2 r c)) := by
  refine (multiReduction_minimumf_single src _ h hφ hacc (ix1 r)).trans ?_
  refine congrArg (Finset.fold min _ · Finset.univ) (funext fun c => congrArg src ?_)
  funext d
  match d with
  | ⟨0, _⟩ => rfl
  | ⟨1, _⟩ => rfl

/-- The minimum over the rows of an `[a, b]` table, at column `c`. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (c : Fin b) :
    multiReduction (F := Ideal) .minimumf [0] ⟨1, ![b]⟩ src 0x7F800000#32 h hφ hacc (ix1 c)
      = (Finset.univ : Finset (Fin a)).fold min (Ideal.ofBits .f32 0x7F800000#32) (fun r => src (ix2 r c)) := by
  refine (multiReduction_minimumf_single src _ h hφ hacc (ix1 c)).trans ?_
  refine congrArg (Finset.fold min _ · Finset.univ) (funext fun r => congrArg src ?_)
  funext d
  match d with
  | ⟨0, _⟩ => rfl
  | ⟨1, _⟩ => rfl

end Cert.Lib.KeepdimsMin

end
-- ==== Proof.LibRowSumKeep.lean ====
/-
  A sum along the rows of an [a, b] array of extended reals, kept as a column.

  * The `add` reduction over axis 1 of an [a, b] array, read at row `r`, is the sum of that row's `b` entries.
  * The same reduction kept as an [a, 1] column (the form a mean with `keepdims` takes) reads, at `(r, u)`, that sum.
  General in the extents `a` and `b`.
-/
import proofs.«157017_j77824807404253_2_alg».proof.Proof.LibKeepdimsMin

noncomputable section

namespace Cert.Lib.RowSumKeep

open Idealize.ShloMosaic Idealize.ShloMosaic.ValueIdx

/-- The sum over axis 1 of an `[a, b]` array, at row `r`: the `Fin b`-indexed sum of that row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- The row sums kept as an `[a, 1]` column read, at `(r, u)`, the sum of row `r`. -/
theorem rowSumKeep_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (r : Fin a) (u : Fin 1) :
    shapeCast ⟨2, ![a, 1]⟩ (multiReduction (F := Ideal) .add [1] ⟨1, ![a]⟩ src 0x00000000#32 h hφ hacc) hc (ix2 r u)
      = ∑ k : Fin b, src (ix2 r k) :=
  (Cert.Lib.KeepdimsMin.shapeCast_a_a1_apply _ hc r u).trans (rowSum_apply src h hφ hacc r)

end Cert.Lib.RowSumKeep

end
-- ==== Proof.QuantBody.lean ====
/-
  What the quantising kernel stores, entry by entry.

  The body loads a block of 512 weight rows (each with all of its 2048 entries), forms for every row the threshold
  — the literal fraction of the row's mean absolute value — as a column, and stores for every entry its ternary
  value against its row's threshold.  So the stored block at (row p, column k) is the ternary value of the loaded
  entry against the threshold of loaded row p: a function of that one row only.
-/
import proofs.«157017_j77824807404253_2_alg».proof.Proof.Gen.KernelIdeal.Skeleton
import proofs.«157017_j77824807404253_2_alg».proof.Proof.Spec
import proofs.«157017_j77824807404253_2_alg».proof.Proof.LibRowSumKeep

noncomputable section

namespace Cert.KernelIdeal.Quant

open Idealize.ShloMosaic Idealize.ShloMosaic.ValueIdx Cert.KernelIdeal Cert.KernelIdeal.Gen Cert.Ternary

/-- The thresholds of a loaded block's 512 rows, as the column the body forms. -/
def thrCol (x0 : FVec Ideal S512x2048 .f32) : FVec Ideal S512x1 .f32 :=
  mulf (broadcast S512x1 (Scalar.ofBits .f32 0x3F333333#32))
    (divf (shapeCast S512x1 (multiReduction .add [1] S512 (absf x0) 0x00000000#32 reduces_S512x2048_S512 (.inl rfl) rfl)
        shapeCasts_S512_S512x1)
      (broadcast S512x1 (Scalar.ofBits .f32 0x45000000#32)))

/-- The column at row `p` is the threshold of row `p` of the block. -/
theorem thrCol_apply (x0 : FVec Ideal S512x2048 .f32) (p : Fin 512) (u : Fin 1) :
    thrCol x0 (ix2 p u) = thr fun k => x0 (ix2 p k) := by
  unfold thr
  refine congrArg (fun z => Ideal.ofBits .f32 0x3F333333#32 * Ideal.div z (Ideal.ofBits .f32 0x45000000#32)) ?_
  exact Cert.Lib.RowSumKeep.rowSumKeep_apply (absf x0) reduces_S512x2048_S512 (.inl rfl) rfl shapeCasts_S512_S512x1 p u

/-- The stored value as one term over the threshold column. -/
theorem pay_eq (x0 : Vec Ideal S512x2048 .f32) :
    k0_pay1 (F := Ideal) x0
      = truncf .bf16
          (select (cmpf .ogt x0 (broadcastTo S512x2048 (thrCol x0) broadcasts_S512x1_S512x2048))
            (broadcast S512x2048 (Scalar.ofBits .f32 0x3F800000#32))
            (select (cmpf .olt x0 (broadcastTo S512x2048 (subf (broadcast S512x1 (Scalar.ofBits .f32 0x00000000#32)) (thrCol x0))
                broadcasts_S512x1_S512x2048))
              (broadcast S512x2048 (Scalar.ofBits .f32 0xBF800000#32))
              (broadcast S512x2048 (Scalar.ofBits .f32 0x00000000#32))))
          bitsLt_bf16_f32 := rfl

/-- The stored block at (row `p`, column `k`): the ternary value of the loaded entry against row `p`'s threshold. -/
theorem pay_entry (x0 : Vec Ideal S512x2048 .f32) (p : Fin 512) (k : Fin 2048) :
    k0_pay1 (F := Ideal) x0 (ix2 p k) = tern (x0 (ix2 p k)) (thr fun k' => x0 (ix2 p k')) := by
  rw [pay_eq]
  unfold tern
  show Scalar.select (Ideal.cmp .ogt (x0 (ix2 p k)) (broadcastTo S512x2048 (thrCol x0) broadcasts_S512x1_S512x2048 (ix2 p k)))
      (Ideal.ofBits .f32 0x3F800000#32)
      (Scalar.select (Ideal.cmp .olt (x0 (ix2 p k))
          (broadcastTo S512x2048 (subf (broadcast S512x1 (Scalar.ofBits .f32 0x00000000#32)) (thrCol x0)) broadcasts_S512x1_S512x2048 (ix2 p k)))
        (Ideal.ofBits .f32 0xBF800000#32) (Ideal.ofBits .f32 0x00000000#32)) = _
  rw [Cert.Lib.KeepdimsMin.broadcastTo_a1_ab_apply (thrCol x0) broadcasts_S512x1_S512x2048 p k,
    Cert.Lib.KeepdimsMin.broadcastTo_a1_ab_apply (subf (broadcast S512x1 (Scalar.ofBits .f32 0x00000000#32)) (thrCol x0))
      broadcasts_S512x1_S512x2048 p k]
  show Scalar.select (Ideal.cmp .ogt (x0 (ix2 p k)) (thrCol x0 (ix2 p (0 : Fin 1)))) (Ideal.ofBits .f32 0x3F800000#32)
      (Scalar.select (Ideal.cmp .olt (x0 (ix2 p k)) (Ideal.ofBits .f32 0x00000000#32 - thrCol x0 (ix2 p (0 : Fin 1))))
        (Ideal.ofBits .f32 0xBF800000#32) (Ideal.ofBits .f32 0x00000000#32)) = _
  rw [thrCol_apply, Ideal.ofBits_zero_f32, zero_sub]

end Cert.KernelIdeal.Quant

end
-- ==== Proof.QuantArray.lean ====
/-
  The quantised weight array after the first launch.

  The launch visits 4 grid points; point t reads rows 512·t … 512·t + 511 of the weight (all 2048 columns) and
  writes back the same rows of the output.  An output row's ternary values depend on that weight row only, so
  the block point t writes is the restriction of the ternary matrix `Q` of the whole weight; the four blocks
  tile the 2048 rows, so the output array ends as `Q` of the weight.
-/
import proofs.«157017_j77824807404253_2_alg».proof.Proof.Gen.KernelIdeal.Frame
import proofs.«157017_j77824807404253_2_alg».proof.Proof.QuantBody
import Idealize.ShloMosaic.Lib.Pipeline.Value

noncomputable section

namespace Cert.KernelIdeal.Quant

open Idealize.ShloMosaic Idealize.ShloMosaic.TcCoe Idealize.ShloMosaic.ValueIdx Idealize.SL.Sem
open Cert.KernelIdeal Cert.KernelIdeal.Gen Cert.Ternary
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block at point `t` is block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The stored block at any index `j` of the block. -/
theorem pay_at (x0 : Vec Ideal S512x2048 .f32) (j : S512x2048.Idx) :
    k0_pay1 (F := Ideal) x0 j = tern (x0 j) (thr fun k => x0 (ix2 ⟨(j 0).val, (j 0).isLt⟩ k)) := by
  obtain ⟨p, k, rfl⟩ : ∃ (p : Fin 512) (k : Fin 2048), j = ix2 p k := ⟨j 0, j 1, eq_ix2 j⟩
  exact pay_entry x0 p k

/-- The input block at point `t` is rows 512·t … of the weight as the launch finds it. -/
theorem iblk_apply (c : Dev nD) (t : Fin cfg0.N) (y : S512x2048.Idx) (i : S2048x2048.Idx)
    (h0 : (i 0).val = t.val * 512 + (y 0).val) (h1 : (i 1).val = (y 1).val) :
    (iblk0 V c 0 t : Vec Ideal S512x2048 .f32) y = (V c main_arg1 : S2048x2048.Idx → EReal) i := by
  obtain ⟨e00, e01, -, -⟩ := idx_facts t
  unfold iblk0
  rw [View.read_apply]
  show (V c main_arg1 : S2048x2048.Idx → EReal) _ = (V c main_arg1 : S2048x2048.Idx → EReal) i
  refine congrArg (V c main_arg1 : S2048x2048.Idx → EReal) (funext fun a => Fin.ext ?_)
  match a with
  | ⟨0, _⟩ => show win0_0.index t (0 : Fin 2) * 512 + 1 * (y 0).val = (i 0).val; rw [e00, h0]; omega
  | ⟨1, _⟩ => show win0_0.index t (1 : Fin 2) * 2048 + 1 * (y 1).val = (i 1).val; rw [e01, h1]; omega

/-- What point `t` writes back is block `t` of the ternary matrix of the weight. -/
theorem flushed_eq (c : Dev nD) (t : Fin cfg0.N) :
    (dat0 V c).flushed 1 t = ((cfg0.win 1).blk t).view.read (Elt Ideal) (Q (V c main_arg1)) := by
  show (cfg0.win 1).cut (grid0.coords t) ((dat0 V c).after 1 t) = _
  rw [after0_1]
  unfold out0_1
  rw [View.canon_unit_zero hz]
  simp only [View.ld_unit_zero (S := S512x2048) hz]
  obtain ⟨-, -, e10, e11⟩ := idx_facts t
  funext j
  have hj0 : (j 0).val < 512 := (j 0).isLt
  have hj1 : (j 1).val < 2048 := (j 1).isLt
  refine (pay_at (iblk0 V c 0 t) j).trans ?_
  show _ = Qrc (V c main_arg1) ⟨((((cfg0.win 1).blk t).view.emb j) 0).val, _⟩ ⟨((((cfg0.win 1).blk t).view.emb j) 1).val, _⟩
  unfold Qrc
  refine congrArg₂ tern ?_ (congrArg thr (funext fun k => ?_))
  · refine iblk_apply V c t j _ ?_ ?_
    · show win0_1.index t (0 : Fin 2) * 512 + 1 * (j 0).val = t.val * 512 + (j 0).val; rw [e10]; omega
    · show win0_1.index t (1 : Fin 2) * 2048 + 1 * (j 1).val = (j 1).val; rw [e11]; omega
  · refine iblk_apply V c t _ _ ?_ ?_
    · show win0_1.index t (0 : Fin 2) * 512 + 1 * (j 0).val = t.val * 512 + (j 0).val; rw [e10]; omega
    · rfl

/-- An index of the output array is in point `t`'s block iff each coordinate is in the block's range. -/
theorem mem_blk (t : Fin cfg0.N) (i : S2048x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Every index of the output array is in the block of the point its row falls in. -/
theorem cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  have hN : cfg0.N = 4 := N_0
  obtain ⟨t, ht⟩ : ∃ t : Fin cfg0.N, t.val = (i 0).val / 512 := ⟨⟨(i 0).val / 512, by rw [hN]; omega⟩, rfl⟩
  obtain ⟨-, -, e10, e11⟩ := idx_facts t
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    rw [e10, ht]; omega
  | ⟨1, _⟩ =>
    show win0_1.index t (1 : Fin 2) * 2048 ≤ (i 1).val ∧ (i 1).val < win0_1.index t (1 : Fin 2) * 2048 + 2048
    rw [e11]; omega

/-- The output array after the launch is the ternary matrix of the weight array the launch finds. -/
theorem arr_eq (c : Dev nD) : (dat0 V c).arrAt 1 cfg0.N = Q (V c main_arg1) :=
  (dat0 V c).arrAt_eq_of_cover 1 (Q (V c main_arg1)) (fun t _ => flushed_eq V c t) cover

end Cert.KernelIdeal.Quant

end
-- ==== Proof.MatmulBody.lean ====
/-
  What the matrix-product kernel stores, entry by entry.

  The body loads a block of 512 input rows, the whole ternary weight and the one-row bias, contracts the input
  block with the weight over the shared last axis into a zero accumulator, and adds the bias row to every row.
  So the stored block at (row p, channel o) is the sum over k of input[p, k] · weight[o, k], plus bias[0, o].
-/
import proofs.«157017_j77824807404253_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Matmul

open Idealize.ShloMosaic Idealize.ShloMosaic.ValueIdx Cert.KernelIdeal Cert.KernelIdeal.Gen

/-! ## The contraction's operand indices: the left operand at (result row, k), the right at (result column, k) -/

theorem lhs0 (i : S512x2048.Idx) (q : dot_S512x2048_S2048x2048_S512x2048_1_1_0_0_n_n.contr.Idx) : (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl
theorem lhs1 (i : S512x2048.Idx) (q : dot_S512x2048_S2048x2048_S512x2048_1_1_0_0_n_n.contr.Idx) : (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs0 (i : S512x2048.Idx) (q : dot_S512x2048_S2048x2048_S512x2048_1_1_0_0_n_n.contr.Idx) : (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl
theorem rhs1 (i : S512x2048.Idx) (q : dot_S512x2048_S2048x2048_S512x2048_1_1_0_0_n_n.contr.Idx) : (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator, at (row `p`, channel `o`): the sum over the 2048 shared coordinates. -/
theorem matmul_entry (l : FVec Ideal S512x2048 .bf16) (r : FVec Ideal S2048x2048 .bf16) (p : Fin 512) (o : Fin 2048) :
    matmul dot_S512x2048_S2048x2048_S512x2048_1_1_0_0_n_n none l r (constant S512x2048 .f32 0x00000000#32) (ix2 p o) = ∑ k : Fin 2048, l (ix2 p k) * r (ix2 o k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p o) ((ValueIdx.contrEquiv1 dot_S512x2048_S2048x2048_S512x2048_1_1_0_0_n_n 2048 rfl rfl).symm k) = ix2 p k := funext fun a => Fin.ext (by
    match a with
    | ⟨0, _⟩ => exact lhs0 _ _
    | ⟨1, _⟩ => exact (lhs1 _ _).trans hk)
  have er : dot_S512x2048_S2048x2048_S512x2048_1_1_0_0_n_n.rhsIdx (ix2 p o) ((ValueIdx.contrEquiv1 dot_S512x2048_S2048x2048_S512x2048_1_1_0_0_n_n 2048 rfl rfl).symm k) = ix2 o k := funext fun a => Fin.ext (by
    match a with
    | ⟨0, _⟩ => exact rhs0 _ _
    | ⟨1, _⟩ => exact (rhs1 _ _).trans hk)
  rw [el, er]

/-- The stored value as one term of the three loaded blocks. -/
theorem pay_eq (x0 : FVec Ideal S512x2048 .f32) (x1 : FVec Ideal S2048x2048 .bf16) (x2 : FVec Ideal S1x2048 .f32) :
    k1_pay1 (F := Ideal) x0 x1 x2
      = addf (matmul dot_S512x2048_S2048x2048_S512x2048_1_1_0_0_n_n none (truncf .bf16 (shapeCast S512x2048 x0 shapeCasts_S512x2048_S512x2048) bitsLt_bf16_f32)
            (shapeCast S2048x2048 x1 shapeCasts_S2048x2048_S2048x2048) (constant S512x2048 .f32 0x00000000#32))
          (broadcastTo S512x2048 (shapeCast S1x2048 x2 shapeCasts_S1x2048_S1x2048) broadcasts_S1x2048_S512x2048) := rfl

/-- The stored block at (row `p`, channel `o`). -/
theorem pay_entry (x0 : FVec Ideal S512x2048 .f32) (x1 : FVec Ideal S2048x2048 .bf16) (x2 : FVec Ideal S1x2048 .f32)
    (p : Fin 512) (o : Fin 2048) :
    k1_pay1 (F := Ideal) x0 x1 x2 (ix2 p o) = (∑ k : Fin 2048, x0 (ix2 p k) * x1 (ix2 o k)) + x2 (ix2 (0 : Fin 1) o) := by
  rw [pay_eq, shapeCast_self, shapeCast_self, shapeCast_self]
  show matmul (F := Ideal) dot_S512x2048_S2048x2048_S512x2048_1_1_0_0_n_n none (truncf .bf16 x0 bitsLt_bf16_f32) x1 (constant S512x2048 .f32 0x00000000#32) (ix2 p o)
      + broadcastTo S512x2048 x2 broadcasts_S1x2048_S512x2048 (ix2 p o) = _
  rw [matmul_entry, broadcastTo_1b_ab_apply]
  rfl

end Cert.KernelIdeal.Matmul

end
-- ==== Proof.MatmulArray.lean ====
/-
  The product array after the second launch.

  The launch visits 16 grid points; point t reads rows 512·t … 512·t + 511 of the flattened input (all 2048
  columns), the whole weight matrix it is given and the whole one-row bias, and writes back the same rows of the
  output.  An output entry (r, o) is row r of the input against row o of the weight plus bias entry o, whatever
  block r falls in, so each written block is the restriction of one matrix `MMf`; the sixteen blocks tile the
  8192 rows, so the output array ends as `MMf` of the three arrays the launch finds.
-/
import proofs.«157017_j77824807404253_2_alg».proof.Proof.Gen.KernelIdeal.Frame
import proofs.«157017_j77824807404253_2_alg».proof.Proof.MatmulBody
import proofs.«157017_j77824807404253_2_alg».proof.Proof.Spec
import Idealize.ShloMosaic.Lib.Pipeline.Value

noncomputable section

namespace Cert.KernelIdeal.Matmul

open Idealize.ShloMosaic Idealize.ShloMosaic.TcCoe Idealize.ShloMosaic.ValueIdx Idealize.SL.Sem
open Cert.KernelIdeal Cert.KernelIdeal.Gen Cert.Ternary
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At point `t` the input and output windows are at block (t, 0); the weight and the bias at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stored block at any index `j` of the block. -/
theorem pay_at (x0 : FVec Ideal S512x2048 .f32) (x1 : FVec Ideal S2048x2048 .bf16) (x2 : FVec Ideal S1x2048 .f32)
    (j : S512x2048.Idx) :
    k1_pay1 (F := Ideal) x0 x1 x2 j
      = (∑ k : Fin 2048, x0 (ix2 ⟨(j 0).val, (j 0).isLt⟩ k) * x1 (ix2 ⟨(j 1).val, (j 1).isLt⟩ k))
        + x2 (ix2 (0 : Fin 1) ⟨(j 1).val, (j 1).isLt⟩) := by
  obtain ⟨p, o, rfl⟩ : ∃ (p : Fin 512) (o : Fin 2048), j = ix2 p o := ⟨j 0, j 1, eq_ix2 j⟩
  exact pay_entry x0 x1 x2 p o

/-- The input block at point `t` is rows 512·t … of the flattened input as the launch finds it. -/
theorem iblk_in_apply (c : Dev nD) (t : Fin cfg1.N) (y : S512x2048.Idx) (i : S8192x2048.Idx)
    (h0 : (i 0).val = t.val * 512 + (y 0).val) (h1 : (i 1).val = (y 1).val) :
    (iblk1 V c 0 t : FVec Ideal S512x2048 .f32) y = (V c main_v0 : S8192x2048.Idx → EReal) i := by
  obtain ⟨e00, e01, -⟩ := idx_facts t
  unfold iblk1
  rw [View.read_apply]
  show (V c main_v0 : S8192x2048.Idx → EReal) _ = (V c main_v0 : S8192x2048.Idx → EReal) i
  refine congrArg (V c main_v0 : S8192x2048.Idx → EReal) (funext fun a => Fin.ext ?_)
  match a with
  | ⟨0, _⟩ => show win1_0.index t (0 : Fin 2) * 512 + 1 * (y 0).val = (i 0).val; rw [e00, h0]; omega
  | ⟨1, _⟩ => show win1_0.index t (1 : Fin 2) * 2048 + 1 * (y 1).val = (i 1).val; rw [e01, h1]; omega

/-- The weight block at every point is the whole weight array as the launch finds it. -/
theorem iblk_w_apply (c : Dev nD) (t : Fin cfg1.N) (y : S2048x2048.Idx) (i : S2048x2048.Idx)
    (h0 : (i 0).val = (y 0).val) (h1 : (i 1).val = (y 1).val) :
    (iblk1 V c 1 t : FVec Ideal S2048x2048 .bf16) y = (V c main_v1 : S2048x2048.Idx → EReal) i := by
  obtain ⟨-, -, e10, e11, -⟩ := idx_facts t
  unfold iblk1
  rw [View.read_apply]
  show (V c main_v1 : S2048x2048.Idx → EReal) _ = (V c main_v1 : S2048x2048.Idx → EReal) i
  refine congrArg (V c main_v1 : S2048x2048.Idx → EReal) (funext fun a => Fin.ext ?_)
  match a with
  | ⟨0, _⟩ => show win1_1.index t (0 : Fin 2) * 2048 + 1 * (y 0).val = (i 0).val; rw [e10, h0]; omega
  | ⟨1, _⟩ => show win1_1.index t (1 : Fin 2) * 2048 + 1 * (y 1).val = (i 1).val; rw [e11, h1]; omega

/-- The bias block at every point is the whole one-row bias array as the launch finds it. -/
theorem iblk_b_apply (c : Dev nD) (t : Fin cfg1.N) (y : S1x2048.Idx) (i : S1x2048.Idx)
    (h0 : (i 0).val = (y 0).val) (h1 : (i 1).val = (y 1).val) :
    (iblk1 V c 2 t : FVec Ideal S1x2048 .f32) y = (V c main_v2 : S1x2048.Idx → EReal) i := by
  obtain ⟨-, -, -, -, e20, e21, -⟩ := idx_facts t
  unfold iblk1
  rw [View.read_apply]
  show (V c main_v2 : S1x2048.Idx → EReal) _ = (V c main_v2 : S1x2048.Idx → EReal) i
  refine congrArg (V c main_v2 : S1x2048.Idx → EReal) (funext fun a => Fin.ext ?_)
  match a with
  | ⟨0, _⟩ => show win1_2.index t (0 : Fin 2) * 1 + 1 * (y 0).val = (i 0).val; rw [e20, h0]; omega
  | ⟨1, _⟩ => show win1_2.index t (1 : Fin 2) * 2048 + 1 * (y 1).val = (i 1).val; rw [e21, h1]; omega

/-- What point `t` writes back is block `t` of the product matrix of the arrays the launch finds. -/
theorem flushed_eq (c : Dev nD) (t : Fin cfg1.N) :
    (dat1 V c).flushed 3 t
      = ((cfg1.win 3).blk t).view.read (Elt Ideal) (MMf (V c main_v0) (V c main_v1) (V c main_v2)) := by
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨-, -, -, -, -, -, e30, e31⟩ := idx_facts t
  funext j
  have hj0 : (j 0).val < 512 := (j 0).isLt
  have hj1 : (j 1).val < 2048 := (j 1).isLt
  refine (pay_at (iblk1 V c 0 t) (iblk1 V c 1 t) (iblk1 V c 2 t) j).trans ?_
  show _ = MM (V c main_v0) (V c main_v1) (V c main_v2) ⟨((((cfg1.win 3).blk t).view.emb j) 0).val, _⟩
      ⟨((((cfg1.win 3).blk t).view.emb j) 1).val, _⟩
  unfold MM
  refine congrArg₂ (· + ·) (Finset.sum_congr rfl fun k _ => congrArg₂ (· * ·) ?_ ?_) ?_
  · refine iblk_in_apply V c t _ _ ?_ ?_
    · show win1_3.index t (0 : Fin 2) * 512 + 1 * (j 0).val = t.val * 512 + (j 0).val; rw [e30]; omega
    · rfl
  · refine iblk_w_apply V c t _ _ ?_ ?_
    · show win1_3.index t (1 : Fin 2) * 2048 + 1 * (j 1).val = (j 1).val; rw [e31]; omega
    · rfl
  · refine iblk_b_apply V c t _ _ ?_ ?_
    · rfl
    · show win1_3.index t (1 : Fin 2) * 2048 + 1 * (j 1).val = (j 1).val; rw [e31]; omega

/-- An index of the output array is in point `t`'s block iff each coordinate is in the block's range. -/
theorem mem_blk (t : Fin cfg1.N) (i : S8192x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v3).slice (win1_3.rect t)).set ↔ _
  rw [View.set_slice_whole, Rect.mem_set_unit]
  exact Iff.rfl

/-- Every index of the output array is in the block of the point its row falls in. -/
theorem cover (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e30, ht]; omega
  | ⟨1, _⟩ =>
    show win1_3.index t (1 : Fin 2) * 2048 ≤ (i 1).val ∧ (i 1).val < win1_3.index t (1 : Fin 2) * 2048 + 2048
    rw [e31]; omega

/-- The output array after the launch is the product matrix of the three arrays the launch finds. -/
theorem arr_eq (c : Dev nD) : (dat1 V c).arrAt 3 cfg1.N = MMf (V c main_v0) (V c main_v1) (V c main_v2) :=
  (dat1 V c).arrAt_eq_of_cover 3 (MMf (V c main_v0) (V c main_v1) (V c main_v2)) (fun t _ => flushed_eq V c t) cover

end Cert.KernelIdeal.Matmul

end
-- ==== Proof.Flatten.lean ====
/-
  The flattened layout of the layer.

  The kernel flattens the input [4, 2048, 2048] to [8192, 2048] (row p·2048 + s is position s of batch p), gives
  the bias one leading unit axis, forms the [8192, 2048] product matrix, and unflattens it.  Row-major position
  is preserved by each change of shape, so entry (p, s, o) of the unflattened product matrix over the ternary
  weight is the layer's output there: input row (p, s) against ternary row o, plus bias o.
-/
import proofs.«157017_j77824807404253_2_alg».proof.Proof.Spec
import Idealize.ShloMosaic.Lib.Pipeline.Value
import Idealize.ShloMosaic.Lib.ValueLayout

noncomputable section

namespace Cert.Ternary

open Idealize.ShloMosaic Idealize.ShloMosaic.ValueIdx

/-- The unflattened product matrix of the flattened input, the ternary weight and the one-row bias is the layer
    function. -/
theorem layer_of_flat (x : (⟨3, ![4, 2048, 2048]⟩ : Shape).Idx → EReal) (w : (⟨2, ![2048, 2048]⟩ : Shape).Idx → EReal)
    (b : (⟨1, ![2048]⟩ : Shape).Idx → EReal)
    (h0 : (⟨3, ![4, 2048, 2048]⟩ : Shape).ShapeCasts ⟨2, ![8192, 2048]⟩)
    (h2 : (⟨1, ![2048]⟩ : Shape).ShapeCasts ⟨2, ![1, 2048]⟩)
    (h4 : (⟨2, ![8192, 2048]⟩ : Shape).ShapeCasts ⟨3, ![4, 2048, 2048]⟩) :
    shapeCast ⟨3, ![4, 2048, 2048]⟩
        (MMf (shapeCast ⟨2, ![8192, 2048]⟩ x h0) (Q w) (shapeCast ⟨2, ![1, 2048]⟩ b h2)) h4
      = G x w b := by
  funext i
  obtain ⟨p, s, o, rfl⟩ : ∃ (p : Fin 4) (s o : Fin 2048), i = ix3 p s o := ⟨i 0, i 1, i 2, eq_ix3 i⟩
  have hr : p.val * 2048 + s.val < 8192 := by have := p.isLt; have := s.isLt; omega
  rw [shapeCast_apply _ h4 (ix3 p s o) (ix2 (⟨p.val * 2048 + s.val, hr⟩ : Fin 8192) o)
    (by rw [Shape.rowMajor_val_two, Shape.rowMajor_val_three]; rfl)]
  show MM _ _ _ (⟨p.val * 2048 + s.val, hr⟩ : Fin 8192) o = Gc x w b p s o
  unfold MM Gc
  refine congrArg₂ (· + ·) (Finset.sum_congr rfl fun k _ => congrArg₂ (· * ·) ?_ (Q_ix2 w o k)) ?_
  · exact shapeCast_apply x h0 (ix2 (⟨p.val * 2048 + s.val, hr⟩ : Fin 8192) k) (ix3 p s k)
      (by rw [Shape.rowMajor_val_two, Shape.rowMajor_val_three]; rfl)
  · exact shapeCast_a_1a_apply b h2 0 o

end Cert.Ternary

end
-- ==== Proof.KernelRun.lean ====
/-
  The kernel program's run, with the result array read.

  @main is a chain: flatten the input; launch the quantiser over the weight; give the bias a leading unit axis;
  launch the matrix product over the flattened input, the quantised weight and the bias row; unflatten the
  product.  Every weakly fair execution ends with the unscoped buffers at the contents this chain folds to, so
  the result buffer holds the unflattened product matrix, whose factors are read back one boundary at a time:
  the flattened input and the bias row are changes of shape of the arguments, the quantised weight is the ternary
  matrix of the weight argument, and the product array is the product matrix of those three.  Together they are
  the layer function of the three arguments.
-/
import proofs.«157017_j77824807404253_2_alg».proof.Proof.Gen.KernelIdeal.Frame
import proofs.«157017_j77824807404253_2_alg».proof.Proof.QuantArray
import proofs.«157017_j77824807404253_2_alg».proof.Proof.MatmulArray
import proofs.«157017_j77824807404253_2_alg».proof.Proof.Flatten
import Idealize.ShloMosaic.Lib.StableHlo.Run

set_option maxRecDepth 16384

noncomputable section

namespace Cert.KernelIdeal.Run

open Cert.KernelIdeal Cert.KernelIdeal.Gen Cert.Ternary
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the
    chain of host operations and launches folds to, and the three arguments end as launched. -/
theorem run_out : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Launch

section Values

variable (m : (ℓ : Loc nD τ sig) → Buf (Elt Ideal) ℓ) (ρ : Dev nD → PrngReg)

/-! ## The buffers at each boundary -/

/-- After the first host operation the flattened-input buffer holds the input argument, flattened. -/
theorem W1_v0 (c : Dev nD) : W1 m ρ c (Proc.devRef .tc main_v0)
    = shapeCast S8192x2048 (m ((c.tc : Thread nD τ).loc main_arg0)) shapeCasts_S4x2048x2048_S8192x2048 := by
  show StableHlo.after hostOps0 (W0 m ρ c) (Proc.devRef .tc main_v0) = _
  dsimp only [hostOps0]
  after_results
  all_goals rfl

/-- The weight argument is untouched by it. -/
theorem W1_arg1 (c : Dev nD) : W1 m ρ c (Proc.devRef .tc main_arg1) = m ((c.tc : Thread nD τ).loc main_arg1) := by
  show StableHlo.after hostOps0 (W0 m ρ c) (Proc.devRef .tc main_arg1) = _
  dsimp only [hostOps0]
  after_results
  all_goals rfl

/-- The bias argument is untouched by it. -/
theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results
  all_goals rfl

/-- After the first launch the quantised-weight buffer holds the ternary matrix of the weight argument. -/
theorem W2_v1 (c : Dev nD) : W2 m ρ c (Proc.devRef .tc main_v1) = Q (m ((c.tc : Thread nD τ).loc main_arg1)) :=
  (W2_arr m ρ c 1).trans ((Quant.arr_eq (V1 m ρ) c).trans (congrArg Q (W1_arg1 m ρ c)))

/-- The first launch leaves the flattened input and the bias argument as it found them. -/
theorem W2_v0 (c : Dev nD) : W2 m ρ c (Proc.devRef .tc main_v0) = W1 m ρ c (Proc.devRef .tc main_v0) :=
  W2_of_ne m ρ c main_v0 (by decide)
theorem W2_arg2 (c : Dev nD) : W2 m ρ c (Proc.devRef .tc main_arg2) = W1 m ρ c (Proc.devRef .tc main_arg2) :=
  W2_of_ne m ρ c main_arg2 (by decide)

/-- The second host operation writes the bias row only. -/
theorem W3_v0 (c : Dev nD) : W3 m ρ c (Proc.devRef .tc main_v0) = W2 m ρ c (Proc.devRef .tc main_v0) := by
  show StableHlo.after hostOps1 (W2 m ρ c) (Proc.devRef .tc main_v0) = _
  dsimp only [hostOps1]
  after_results
  all_goals rfl
theorem W3_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results
  all_goals rfl
theorem W3_v2 (c : Dev nD) : W3 m ρ c (Proc.devRef .tc main_v2)
    = shapeCast S1x2048 (W2 m ρ c (Proc.devRef .tc main_arg2)) shapeCasts_S2048_S1x2048 := by
  show StableHlo.after hostOps1 (W2 m ρ c) (Proc.devRef .tc main_v2) = _
  dsimp only [hostOps1]
  after_results
  all_goals rfl

/-- After the second launch the product buffer holds the product matrix of the three arrays it was launched on. -/
theorem W4_v3 (c : Dev nD) : W4 m ρ c (Proc.devRef .tc main_v3)
    = MMf (W3 m ρ c (Proc.devRef .tc main_v0)) (W3 m ρ c (Proc.devRef .tc main_v1)) (W3 m ρ c (Proc.devRef .tc main_v2)) :=
  (W4_arr m ρ c 3).trans (Matmul.arr_eq (V3 m ρ) c)

/-- The last host operation unflattens the product buffer into the result buffer. -/
theorem W5_v4 (c : Dev nD) : W5 m ρ c (Proc.devRef .tc main_v4)
    = shapeCast S4x2048x2048 (W4 m ρ c (Proc.devRef .tc main_v3)) shapeCasts_S8192x2048_S4x2048x2048 := by
  show StableHlo.after hostOps2 (W4 m ρ c) (Proc.devRef .tc main_v4) = _
  dsimp only [hostOps2]
  after_results
  all_goals rfl

/-! ## The result -/

/-- The result buffer's final contents are the layer function of the three arguments. -/
theorem result_eq (c : Dev nD) : W5 m ρ c (Proc.devRef .tc main_v4)
    = G (m ((c.tc : Thread nD τ).loc main_arg0)) (m ((c.tc : Thread nD τ).loc main_arg1)) (m ((c.tc : Thread nD τ).loc main_arg2)) := by
  rw [W5_v4, W4_v3, W3_v0, W2_v0, W1_v0, W3_v1, W2_v1, W3_v2, W2_arg2, W1_arg2]
  exact layer_of_flat _ _ _ _ _ _

/-- The run, read: the result buffer at the layer function of the arguments, the arguments unchanged. -/
theorem run : θ_run defs (onTc (τ := τ) (main (F := Ideal))) ⟨m, fun _ => 0, ρ⟩ (fun r => ∀ c : Dev nD,
      r.2.mem ((c.tc : Thread nD τ).loc main_v4) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_out m ρ)

end Values

end Cert.KernelIdeal.Run

end
-- ==== Proof.RefValue.lean ====
/-
  The reference computes the layer function `G`.

  Read one operation at a time: the reference forms each weight row's threshold as the same literal fraction of
  the row's mean absolute value (the sum started from zero), selects 1 / -1 / 0 by the same two comparisons (the
  lower bound as the negated threshold), and then takes  w + (q - w)  — the ternary value again when the weight
  is a real number —, contracts the input with that matrix over the shared last axis and adds the bias of the
  output channel.  Only the step  w + (q - w) = q  uses that the weights are real.
-/
import proofs.«157017_j77824807404253_2_alg».proof.Proof.Gen.ReferenceIdeal.Read
import proofs.«157017_j77824807404253_2_alg».proof.Proof.Spec

noncomputable section

namespace Cert.ReferenceIdeal.RefValue

open Idealize.ShloMosaic Idealize.ShloMosaic.ValueIdx Cert.ReferenceIdeal Cert.ReferenceIdeal.Read Cert.Ternary

/-- The reference's threshold column at row `o` is the threshold of weight row `o`. -/
theorem thr_entry (w : (⟨S2048x2048, .f32⟩ : BufTy).Contents (Elt Ideal)) (o : Fin 2048) (u : Fin 1) :
    val_main_v6 (F := Ideal) w (ix2 o u) = thr fun k => w (ix2 o k) := by
  rw [val_main_v6_apply, val_main_v5_apply, val_main_cst_1_apply, val_main_v4_apply, val_main_v2_apply, val_main_v3_apply,
    val_main_cst_0_apply, val_main_v1_apply, val_main_cst_apply]
  unfold thr
  show Ideal.ofBits .f32 0x3F333333#32
      * Ideal.div (Ideal.ofBits .f32 0x00000000#32 + ∑ k : Fin 2048, val_main_v0 (F := Ideal) w (idx_main_v1 (idx_main_v2 (ix2 o u)) k))
          (Ideal.ofBits .f32 0x45000000#32) = _
  rw [Ideal.ofBits_zero_f32, zero_add]
  refine congrArg (fun z => Ideal.ofBits .f32 0x3F333333#32 * Ideal.div z (Ideal.ofBits .f32 0x45000000#32))
    (Finset.sum_congr rfl fun k _ => ?_)
  have e : idx_main_v1 (idx_main_v2 (ix2 o u)) k = ix2 o k :=
    funext fun a => by match a with | ⟨0, _⟩ => rfl | ⟨1, _⟩ => rfl
  rw [val_main_v0_apply, e]
  rfl

/-- The selected matrix at (channel `o`, input `k`) is the ternary weight. -/
theorem q13_entry (w : (⟨S2048x2048, .f32⟩ : BufTy).Contents (Elt Ideal)) (o k : Fin 2048) : val_main_v13 (F := Ideal) w (ix2 o k) = Qrc w o k := by
  have e7 : idx_main_v7 (ix2 o k) = ix2 o (0 : Fin 1) :=
    funext fun a => by match a with | ⟨0, _⟩ => rfl | ⟨1, _⟩ => rfl
  have e10 : idx_main_v10 (ix2 o k) = ix2 o (0 : Fin 1) :=
    funext fun a => by match a with | ⟨0, _⟩ => rfl | ⟨1, _⟩ => rfl
  rw [val_main_v13_apply, val_main_v8_apply, val_main_v7_apply, val_main_call1_v0_apply, val_main_cst_4_apply, val_main_v12_apply,
    val_main_v11_apply, val_main_v10_apply, val_main_v9_apply, val_main_call0_v0_apply, val_main_cst_2_apply,
    val_main_call0_v1_apply, val_main_cst_3_apply, e7, e10, thr_entry]
  rfl

/-- The matrix the reference contracts with, at (channel `o`, input `k`), for real weights. -/
theorem q16_entry (w : (⟨S2048x2048, .f32⟩ : BufTy).Contents (Elt Ideal)) (hw : ∀ j, ∃ r : ℝ, w j = (r : EReal)) (o k : Fin 2048) :
    val_main_v16 (F := Ideal) w (ix2 o k) = Qrc w o k := by
  rw [val_main_v16_apply, val_main_v15_apply, val_main_v14_apply, q13_entry]
  exact add_tern_sub _ _ (hw _)

/-- The reference's result at (batch `p`, position `s`, channel `o`), for real weights. -/
theorem ref_entry (x : (⟨S4x2048x2048, .f32⟩ : BufTy).Contents (Elt Ideal)) (w : (⟨S2048x2048, .f32⟩ : BufTy).Contents (Elt Ideal))
    (b : (⟨S2048, .f32⟩ : BufTy).Contents (Elt Ideal)) (hw : ∀ j, ∃ r : ℝ, w j = (r : EReal)) (p : Fin 4) (s o : Fin 2048) :
    val_main_v20 (F := Ideal) x w b (ix3 p s o) = Gc x w b p s o := by
  have el : ∀ k, lidx_main_v17 (ix3 p s o) k = ix3 p s k := fun k =>
    funext fun a => by match a with | ⟨0, _⟩ => rfl | ⟨1, _⟩ => rfl | ⟨2, _⟩ => rfl
  have er : ∀ k, ridx_main_v17 (ix3 p s o) k = ix2 o k := fun k =>
    funext fun a => by match a with | ⟨0, _⟩ => rfl | ⟨1, _⟩ => rfl
  have eb : idx_main_v18 (idx_main_v19 (ix3 p s o)) = ix1 o :=
    funext fun a => by match a with | ⟨0, _⟩ => rfl
  rw [val_main_v20_apply, val_main_v17_apply, val_main_v19_apply, val_main_v18_apply, eb]
  unfold Gc
  show (∑ k : Fin 2048, x (lidx_main_v17 (ix3 p s o) k) * val_main_v16 (F := Ideal) w (ridx_main_v17 (ix3 p s o) k)) + b (ix1 o) = _
  refine congrArg (· + b (ix1 o)) (Finset.sum_congr rfl fun k _ => ?_)
  rw [el, er, q16_entry w hw]

/-- The reference's result is the layer function of its arguments, for real weights. -/
theorem ref_eq (x : (⟨S4x2048x2048, .f32⟩ : BufTy).Contents (Elt Ideal)) (w : (⟨S2048x2048, .f32⟩ : BufTy).Contents (Elt Ideal))
    (b : (⟨S2048, .f32⟩ : BufTy).Contents (Elt Ideal)) (hw : ∀ j, ∃ r : ℝ, w j = (r : EReal)) :
    val_main_v20 (F := Ideal) x w b = G x w b := funext fun i => by
  obtain ⟨p, s, o, rfl⟩ : ∃ (p : Fin 4) (s o : Fin 2048), i = ix3 p s o := ⟨i 0, i 1, i 2, eq_ix3 i⟩
  exact ref_entry x w b hw p s o

end Cert.ReferenceIdeal.RefValue

end
-- ==== Proof.Finite.lean ====
/-
  From the precondition to "every weight is a real number".

  The precondition is the conjunction of three tests, one per argument: every entry's absolute value is below
  the f32 pattern of +∞.  On the extended reals that pattern is ⊤ and |x| = max x (-x), so an entry passing the
  test is neither ⊤ nor ⊥: it is a real number.  Only the weight's test is used.
-/
import proofs.«157017_j77824807404253_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

/-- Under the precondition every entry of the weight argument is a real number. -/
theorem weight_real [Facts] (x : FVec Ideal S4x2048x2048 .f32) (w : FVec Ideal S2048x2048 .f32) (b : FVec Ideal S2048 .f32)
    (h : fn (F := Ideal) x w b = fun _ => 1#1) (j : S2048x2048.Idx) : ∃ r : ℝ, w j = (r : EReal) := by
  have h0 := congrFun h ValueIdx.ix0
  dsimp only [fn] at h0
  obtain ⟨h01, -⟩ := IntOp.andi_eq_one.1 (show IntOp.andi _ _ = 1#1 from h0)
  obtain ⟨-, hw⟩ := IntOp.andi_eq_one.1 (show IntOp.andi _ _ = 1#1 from h01)
  have e := Host.reduce_andi_all _ _ _ _ _ hw j
  exact real_of_abs_lt (w j) e

end Cert.Pre_finite_inputs.Finite

end
-- ==== Proof.lean ====
/-
  A dense layer over a ternary weight: the kernel program against its reference, over the extended reals.

  Both programs quantise each row of the weight to {1, -1, 0} against the row's threshold (a fixed fraction of the
  row's mean absolute value), multiply the input by the transposed ternary matrix and add the bias.

  The kernel program does it in two launches.  The first visits the weight 512 rows at a time, each block carrying
  whole rows, so a row's threshold is formed inside one block and the written blocks are restrictions of one
  ternary matrix Q(weight).  The second visits the flattened input 512 rows at a time against the whole of
  Q(weight) and the bias row; its written blocks are restrictions of one product matrix.  Flattening the input
  before and unflattening the product after preserve row-major position, so the result at (p, s, o) is
      Σ_k x[p, s, k] · Q(weight)[o, k] + bias[o].
  The reference forms the same thresholds and comparisons on the whole weight, then takes  w + (q - w)  before
  the contraction; for a real weight that is q again.  This is the one place the precondition is used: every
  weight entry is finite, hence a real number (at w = +∞ the sum ∞ + (q - ∞) would be -∞, not q).
  The sums on both sides are the same `Fin 2048`-indexed sums of the same products, so no rearrangement is needed.

  The frames of the two kernel programs are the generated ones; the reference's frame is its generated run with
  the result dropped; the ideal pass rewrote nothing, so the preservation claim is trivial.
-/
import proofs.«157017_j77824807404253_2_alg».proof.Defs
import proofs.«157017_j77824807404253_2_alg».proof.Proof.Gen.Kernel
import proofs.«157017_j77824807404253_2_alg».proof.Proof.Gen.Kernel.Skeleton
import proofs.«157017_j77824807404253_2_alg».proof.Proof.Gen.Kernel.Launch
import proofs.«157017_j77824807404253_2_alg».proof.Proof.Gen.Kernel.Points
import proofs.«157017_j77824807404253_2_alg».proof.Proof.Gen.Kernel.Frame
import proofs.«157017_j77824807404253_2_alg».proof.Proof.Gen.KernelIdeal
import proofs.«157017_j77824807404253_2_alg».proof.Proof.Gen.KernelIdeal.Skeleton
import proofs.«157017_j77824807404253_2_alg».proof.Proof.Gen.KernelIdeal.Launch
import proofs.«157017_j77824807404253_2_alg».proof.Proof.Gen.KernelIdeal.Points
import proofs.«157017_j77824807404253_2_alg».proof.Proof.Gen.KernelIdeal.Frame
import proofs.«157017_j77824807404253_2_alg».proof.Proof.Gen.ReferenceIdeal
import proofs.«157017_j77824807404253_2_alg».proof.Proof.Gen.ReferenceIdeal.Run
import proofs.«157017_j77824807404253_2_alg».proof.Proof.Gen.ReferenceIdeal.Read
import proofs.«157017_j77824807404253_2_alg».proof.Proof.Gen.Pre_finite_inputs
import proofs.«157017_j77824807404253_2_alg».proof.Proof.KernelRun
import proofs.«157017_j77824807404253_2_alg».proof.Proof.RefValue
import proofs.«157017_j77824807404253_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel program and its reading over the extended reals. -/
theorem preserves : Cert.preserves_Kernel_KernelIdeal := trivial

/-- From memories agreeing on the arguments, both programs end with the layer function of the arguments in
    their result buffers; the reference's reading needs the weights real, which the precondition gives. -/
theorem algebraic : Cert.algebraic_KernelIdeal_ReferenceIdeal := by
  intro m ρ m' ρ' hpre hagree
  refine ⟨fun c => Cert.Ternary.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  exact Cert.ReferenceIdeal.RefValue.ref_eq _ _ _ (Cert.Pre_finite_inputs.Finite.weight_real _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
